-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S4096x1024 : Shape := ⟨2, ![4096, 1024]⟩
abbrev S4096x4096 : Shape := ⟨2, ![4096, 4096]⟩
abbrev S1024x1024 : Shape := ⟨2, ![1024, 1024]⟩
abbrev S256x1024 : Shape := ⟨2, ![256, 1024]⟩
abbrev S1024 : Shape := ⟨1, ![1024]⟩
abbrev S1024x1 : Shape := ⟨2, ![1024, 1]⟩
abbrev S256 : Shape := ⟨1, ![256]⟩
abbrev S256x1 : Shape := ⟨2, ![256, 1]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .f32⟩
  | .local _ .vmem, ⟨7, _⟩ => ⟨S1024x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .f32⟩
  | .local _ .vmem, ⟨11, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  broadcasts_S256x1_S256x1024 : S256x1.Broadcasts S256x1024
  dot_S256x1024_S1024x1024_S256x1024_1_1_0_0_n_n_wf : DotDims.WF S256x1024 S1024x1024 S256x1024 [1] [1] [0] [0] [] []
  dot_S256x1024_S256x1024_S1024x1024_0_0_1_1_n_n_wf : DotDims.WF S256x1024 S256x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .f32 = 32 ∨ (Rect.block (s := S4096x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x4096.size a
  hwx0_4 : ∀ i : grid0.Coords, EltTy.bits .f32 = 32 ∨ (Rect.block (s := S4096x4096) S256x1024.size (cc0_transform_4 i) (hinb0_4 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun _ => false | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1024x4096, .f32⟩
  | .hbm, ⟨24, _⟩ => ⟨S4096x4096, .f32⟩
  | .hbm, ⟨25, _⟩ => ⟨S4096x4096, .f32⟩
  | .hbm, ⟨26, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  transposes_S4096x4096_S4096x4096_1_0 : S4096x4096.Transposes [1, 0] S4096x4096
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Spec.lean ====
/-
  Cosine-similarity attention as functions of the three argument arrays, over the extended reals.

  A row of a matrix is divided by its Euclidean norm, floored at a small constant: `unit x r d = x[r,d] / max(√(Σ_d' x[r,d']²), ε)`.
  The similarity of key row `kk` and query row `qq` is the dot product of the two unit rows, `attn q k kk qq`, and the
  weighted value of query row `qq` is `weighted q k v qq d = Σ_kk attn[kk, qq] · v[kk, d]`.

  The sum over the 4096 key rows may be taken 256 rows at a time: `accum … i n` is the running total after the first `n`
  blocks of key rows, starting from zero, and after all sixteen blocks it is the whole sum (`accum_full`). Only
  associativity and commutativity of addition are used, so nothing needs to be finite.
-/
import Idealize.ShloMosaic.PureOps.Ideal
import Idealize.ShloMosaic.Lib.ValueIdx

noncomputable section

open scoped BigOperators

namespace Cert.CosAttn

open Idealize.ShloMosaic Idealize.ShloMosaic.ValueIdx

/-- A matrix of extended reals, by its rank-2 index. -/
abbrev Mat (R C : ℕ) : Type := (⟨2, ![R, C]⟩ : Shape).Idx → EReal

/-- The floor under a norm: the binary32 number nearest to 1e-8. -/
def eps : EReal := Ideal.ofBits .f32 0x322BCC77#32

/-- The floored Euclidean norm of row `r`. -/
def rowNorm {R C : ℕ} (x : Mat R C) (r : Fin R) : EReal :=
  max (Ideal.sqrt (∑ d : Fin C, x (ix2 r d) * x (ix2 r d))) eps

/-- Entry `(r, d)` of the matrix with every row divided by its floored norm. -/
def unit {R C : ℕ} (x : Mat R C) (r : Fin R) (d : Fin C) : EReal := Ideal.div (x (ix2 r d)) (rowNorm x r)

/-- The cosine similarity of key row `kk` and query row `qq`. -/
def attn (q k : Mat 4096 1024) (kk qq : Fin 4096) : EReal := ∑ d : Fin 1024, unit k kk d * unit q qq d

/-- The similarity-weighted sum of the value rows, for query row `qq`, at column `d`. -/
def weighted (q k v : Mat 4096 1024) (qq : Fin 4096) (d : Fin 1024) : EReal :=
  ∑ kk : Fin 4096, attn q k kk qq * v (ix2 kk d)

/-- The two results as arrays. -/
def attnArr (q k : Mat 4096 1024) : Mat 4096 4096 := fun j => attn q k (j 0) (j 1)
def weightedArr (q k v : Mat 4096 1024) : Mat 4096 1024 := fun j => weighted q k v (j 0) (j 1)

/-- Row `r` of the `j`-th block of 256 key rows. -/
def krow (j : Fin 16) (r : Fin 256) : Fin 4096 := ⟨256 * j.val + r.val, by omega⟩
/-- Row `c` of the `i`-th block of 1024 query rows. -/
def qrow (i : Fin 4) (c : Fin 1024) : Fin 4096 := ⟨1024 * i.val + c.val, by omega⟩

/-- What the `j`-th block of key rows adds to the weighted value of query row `qrow i c`. -/
def contrib (q k v : Mat 4096 1024) (i : Fin 4) (j : Fin 16) (c d : Fin 1024) : EReal :=
  ∑ r : Fin 256, attn q k (krow j r) (qrow i c) * v (ix2 (krow j r) d)

/-- The same with the block number a natural number; zero past the last block. -/
def contribN (q k v : Mat 4096 1024) (i : Fin 4) (n : ℕ) (c d : Fin 1024) : EReal :=
  if h : n < 16 then contrib q k v i ⟨n, h⟩ c d else 0

/-- The running total after the first `n` blocks of key rows, from zero. -/
def accum (q k v : Mat 4096 1024) (i : Fin 4) : ℕ → Fin 1024 → Fin 1024 → EReal
  | 0, _, _ => 0
  | n + 1, c, d => accum q k v i n c d + contribN q k v i n c d

theorem accum_zero (q k v : Mat 4096 1024) (i : Fin 4) (c d : Fin 1024) : accum q k v i 0 c d = 0 := rfl
theorem accum_succ (q k v : Mat 4096 1024) (i : Fin 4) (n : ℕ) (c d : Fin 1024) :
    accum q k v i (n + 1) c d = accum q k v i n c d + contribN q k v i n c d := rfl

/-- A sum over the 4096 key rows is the sum over the sixteen blocks of the sums over each block's 256 rows. -/
theorem sum_krow {M : Type*} [AddCommMonoid M] (f : Fin 4096 → M) :
    ∑ kk : Fin 4096, f kk = ∑ j : Fin 16, ∑ r : Fin 256, f (krow j r) := by
  rw [← Fintype.sum_prod_type' (fun j r => f (krow j r))]
  refine (Fintype.sum_equiv (finProdFinEquiv (m := 16) (n := 256)) (fun p => f (krow p.1 p.2)) f (fun p => ?_)).symm
  refine congrArg f (Fin.ext ?_)
  show 256 * p.1.val + p.2.val = p.2.val + 256 * p.1.val
  omega

/-- The running total is the sum of the blocks' contributions so far. -/
theorem accum_eq_sum (q k v : Mat 4096 1024) (i : Fin 4) (c d : Fin 1024) (n : ℕ) :
    accum q k v i n c d = ∑ j ∈ Finset.range n, contribN q k v i j c d := by
  induction n with
  | zero => rfl
  | succ n ih => rw [accum_succ, ih, Finset.sum_range_succ]

/-- After all sixteen blocks the running total is the weighted value. -/
theorem accum_full (q k v : Mat 4096 1024) (i : Fin 4) (c d : Fin 1024) :
    accum q k v i 16 c d = weighted q k v (qrow i c) d := by
  rw [accum_eq_sum, Finset.sum_range (fun j => contribN q k v i j c d)]
  unfold weighted
  rw [sum_krow]
  refine Finset.sum_congr rfl fun j _ => ?_
  unfold contribN
  rw [dif_pos j.isLt]
  rfl

end Cert.CosAttn

end
-- ==== Proof.RefSpec.lean ====
/-
  The reference computes the specification.

  Each row of the keys and of the queries is divided by its floored Euclidean norm; the first matrix product is the
  table of dot products of unit key rows with unit query rows, and the second is the similarity-weighted sum of the
  value rows.
-/
import proofs.«158362_j22316650070306_2_alg».proof.Proof.Spec
import proofs.«158362_j22316650070306_2_alg».proof.Proof.Gen.ReferenceIdeal.Read
import Idealize.ShloMosaic.Lib.ValueIdx
import Idealize.ShloMosaic.PureOps.Ideal.Laws

noncomputable section

open scoped BigOperators

namespace Cert.CosAttn.Ref

open Cert.ReferenceIdeal Cert.ReferenceIdeal.Read Idealize.ShloMosaic Idealize.ShloMosaic.ValueIdx Cert.CosAttn

/-- The element of a key row that the row sum reads at each step. -/
theorem idx_keys (p : Fin 4096) (d k : Fin 1024) :
    idx_main_v1 (idx_main_v2 (idx_main_v6 (ix2 p d))) k = ix2 p k :=
  funext fun a => by match a with | ⟨0, _⟩ => rfl | ⟨1, _⟩ => rfl

/-- The same for the queries. -/
theorem idx_queries (p : Fin 4096) (d k : Fin 1024) :
    idx_main_v9 (idx_main_v10 (idx_main_v14 (ix2 p d))) k = ix2 p k :=
  funext fun a => by match a with | ⟨0, _⟩ => rfl | ⟨1, _⟩ => rfl

/-- The normalized keys are the unit rows of the keys. -/
theorem norm_keys (x1 : (⟨S4096x1024, .f32⟩ : BufTy).Contents (Elt Ideal)) (p : Fin 4096) (d : Fin 1024) :
    val_main_v7 (F := Ideal) x1 (ix2 p d) = unit x1 p d := by
  rw [val_main_v7_apply, val_main_v6_apply, val_main_v5_apply, val_main_v3_apply, val_main_v2_apply,
    val_main_v1_apply, val_main_v4_apply, val_main_cst_0_apply, val_main_cst_apply]
  simp only [idx_keys, val_main_v0_apply]
  show Ideal.div (x1 (ix2 p d)) (max (Ideal.sqrt (Ideal.ofBits .f32 0x00000000#32 + ∑ k : Fin 1024, x1 (ix2 p k) * x1 (ix2 p k))) eps) = _
  rw [Ideal.ofBits_zero_f32, zero_add]
  rfl

/-- The normalized queries are the unit rows of the queries. -/
theorem norm_queries (x0 : (⟨S4096x1024, .f32⟩ : BufTy).Contents (Elt Ideal)) (p : Fin 4096) (d : Fin 1024) :
    val_main_v15 (F := Ideal) x0 (ix2 p d) = unit x0 p d := by
  rw [val_main_v15_apply, val_main_v14_apply, val_main_v13_apply, val_main_v11_apply, val_main_v10_apply,
    val_main_v9_apply, val_main_v12_apply, val_main_cst_2_apply, val_main_cst_1_apply]
  simp only [idx_queries, val_main_v8_apply]
  show Ideal.div (x0 (ix2 p d)) (max (Ideal.sqrt (Ideal.ofBits .f32 0x00000000#32 + ∑ k : Fin 1024, x0 (ix2 p k) * x0 (ix2 p k))) eps) = _
  rw [Ideal.ofBits_zero_f32, zero_add]
  rfl

/-- The transposed normalized queries: column of a query row, row of a coordinate. -/
theorem norm_queries_t (x0 : (⟨S4096x1024, .f32⟩ : BufTy).Contents (Elt Ideal)) (d : Fin 1024) (q : Fin 4096) :
    val_main_v16 (F := Ideal) x0 (ix2 d q) = unit x0 q d := by
  rw [val_main_v16_apply]
  have e : idx_main_v16 (ix2 d q) = ix2 q d := funext fun a => by match a with | ⟨0, _⟩ => rfl | ⟨1, _⟩ => rfl
  rw [e, norm_queries]

/-- The first product, entry by entry: a key row against a query row. -/
theorem attn_at (x0 x1 : (⟨S4096x1024, .f32⟩ : BufTy).Contents (Elt Ideal)) (p q : Fin 4096) :
    val_main_v17 (F := Ideal) x0 x1 (ix2 p q) = attn x0 x1 p q := by
  rw [val_main_v17_apply]
  unfold attn
  refine Finset.sum_congr rfl fun k _ => ?_
  have el : lidx_main_v17 (ix2 p q) k = ix2 p k := funext fun a => by match a with | ⟨0, _⟩ => rfl | ⟨1, _⟩ => rfl
  have er : ridx_main_v17 (ix2 p q) k = ix2 k q := funext fun a => by match a with | ⟨0, _⟩ => rfl | ⟨1, _⟩ => rfl
  rw [el, er, norm_keys, norm_queries_t]

/-- The first product is the table of similarities. -/
theorem ref_attn (x0 x1 : (⟨S4096x1024, .f32⟩ : BufTy).Contents (Elt Ideal)) :
    val_main_v17 (F := Ideal) x0 x1 = attnArr x0 x1 := by
  funext j
  obtain ⟨p, q, rfl⟩ : ∃ (p : Fin 4096) (q : Fin 4096), j = ix2 p q := ⟨j 0, j 1, eq_ix2 j⟩
  exact attn_at x0 x1 p q

/-- The transposed table, entry by entry. -/
theorem attn_t_at (x0 x1 : (⟨S4096x1024, .f32⟩ : BufTy).Contents (Elt Ideal)) (q p : Fin 4096) :
    val_main_v18 (F := Ideal) x0 x1 (ix2 q p) = attn x0 x1 p q := by
  rw [val_main_v18_apply]
  have e : idx_main_v18 (ix2 q p) = ix2 p q := funext fun a => by match a with | ⟨0, _⟩ => rfl | ⟨1, _⟩ => rfl
  rw [e, attn_at]

/-- The second product, entry by entry. -/
theorem weighted_at (x0 x1 x2 : (⟨S4096x1024, .f32⟩ : BufTy).Contents (Elt Ideal)) (q : Fin 4096) (d : Fin 1024) :
    val_main_v19 (F := Ideal) x0 x1 x2 (ix2 q d) = weighted x0 x1 x2 q d := by
  rw [val_main_v19_apply]
  unfold weighted
  refine Finset.sum_congr rfl fun k _ => ?_
  have el : lidx_main_v19 (ix2 q d) k = ix2 q k := funext fun a => by match a with | ⟨0, _⟩ => rfl | ⟨1, _⟩ => rfl
  have er : ridx_main_v19 (ix2 q d) k = ix2 k d := funext fun a => by match a with | ⟨0, _⟩ => rfl | ⟨1, _⟩ => rfl
  rw [el, er, attn_t_at]

/-- The second product is the array of weighted values. -/
theorem ref_weighted (x0 x1 x2 : (⟨S4096x1024, .f32⟩ : BufTy).Contents (Elt Ideal)) :
    val_main_v19 (F := Ideal) x0 x1 x2 = weightedArr x0 x1 x2 := by
  funext j
  obtain ⟨q, d, rfl⟩ : ∃ (q : Fin 4096) (d : Fin 1024), j = ix2 q d := ⟨j 0, j 1, eq_ix2 j⟩
  exact weighted_at x0 x1 x2 q d

end Cert.CosAttn.Ref

end
-- ==== Proof.LibRows.lean ====
/-
  Rows of a rank-2 array. A reduction of `[a, b]` over its second axis reads, at row `i`, the sum — or the running
  maximum — over the entries `(i, k)` of that row. And the square root, exponential and hyperbolic tangent of a vector
  read at an index: the extended reals' function of the entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- The entry `(i, k)` is the row index `i` with the coordinate `k` put back on the reduced axis. -/
theorem lift_row {a b : ℕ} (h : (⟨2, ![a, b]⟩ : Shape).Reduces [1] ⟨1, ![a]⟩) (i : Fin a) (k : Fin b) :
    h.lift (ix1 i) k = ix2 i k := by
  funext ax
  match ax with
  | ⟨0, _⟩ => rfl
  | ⟨1, _⟩ => rfl

/-- A sum over the second axis of `[a, b]`, at row `i`: the sum of that row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- A maximum over the second axis of `[a, b]`, at row `i`: the fold of `max`, from the accumulator's value, over
    that row's entries. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (Finset.fold max (Ideal.ofBits φ acc) · Finset.univ) (funext fun k => congrArg src (lift_row h i k))

/-- A square root at an index is the square root of the entry. -/
theorem sqrt_apply {s : Shape} {φ : FTy} (a : FVec Ideal s φ) (i : s.Idx) : sqrt a i = Ideal.sqrt (a i) := rfl
/-- An exponential at an index is the exponential of the entry. -/
theorem exp_apply {s : Shape} {φ : FTy} (a : FVec Ideal s φ) (i : s.Idx) : exp a i = Ideal.exp (a i) := rfl
/-- A hyperbolic tangent at an index is the hyperbolic tangent of the entry. -/
theorem tanh_apply {s : Shape} {φ : FTy} (a : FVec Ideal s φ) (i : s.Idx) : tanh a i = Ideal.tanh (a i) := rfl
/-- A scalar constant of the ideal instance is the extended real its word encodes. -/
theorem scalar_ofBits (φ : FTy) (b : BitVec φ.bits) : Scalar.ofBits (F := Ideal) φ b = Ideal.ofBits φ b := rfl

end Idealize.ShloMosaic.ValueIdx

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.LibRowsDot.lean ====
/-
  A matrix product of two rank-2 operands that contracts the LAST axis of both (`x · yᵀ`), read at an entry.

  For dimension numbers `d` over operands of shapes [M, K] and [N, K] and a result of shape [M, N] whose one
  contracted axis is the second of each operand — given as the four coordinate facts of `d`'s operand index
  maps, which for a literal record are decided or read off `DotDims.lhsIdx_val_of_single` — a `tpu.matmul` into
  the zero accumulator at the ideal instance is, at entry (p, q),

      Σ_{k < K} lhs[p, k] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Cert.Lora

open Idealize.ShloMosaic Idealize.ShloMosaic.ValueIdx

/-- `x · yᵀ` into the zero accumulator, at entry (p, q): the sum over the shared last axis of the products of row
    `p` of the left operand and row `q` of the right. The hypotheses say where the record's operand index maps
    read: the left operand at (row of the entry, contraction position), the right at (column of the entry,
    contraction position). -/
theorem rows_dot_zero {M N K : Nat} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lora

end
-- ==== Proof.LibColsDot.lean ====
/-
  A matrix product of two rank-2 operands that contracts the FIRST axis of both (`xᵀ · y`), read at an entry.

  For dimension numbers `D` over operands of shapes [K, M] and [K, N] and a result of shape [M, N] whose one
  contracted axis is the first of each operand — given as the four coordinate facts of `D`'s operand index maps,
  which for a literal record are decided or read off `DotDims.lhsIdx_val_of_single` — a `tpu.matmul` into the zero
  accumulator at the ideal instance is, at entry (p, q),

      Σ_{k < K} lhs[k, p] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Cert.ColsDot

open Idealize.ShloMosaic Idealize.ShloMosaic.ValueIdx

/-- A matrix product of two rank-2 operands that contracts the FIRST axis of both (`xᵀ · y`) into the zero
    accumulator, at entry (p, q): the sum over the shared first axis of the products of column `p` of the left
    operand and column `q` of the right. The hypotheses say where the record's operand index maps read: the left
    operand at (contraction position, row of the entry), the right at (contraction position, column of the entry). -/
theorem cols_dot_zero {M N K : Nat} {φ₁ φ₂ : FTy}
    (D : DotDims ⟨2, ![K, M]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (c : D.contr.Idx), (D.lhsIdx j c 0).val = (c ⟨0, by omega⟩).val)
    (hl1 : ∀ (j : (⟨2, ![M, N]⟩ : Shape).Idx) (c : D.contr.Idx), (D.lhsIdx j c 1).val = (j 0).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (lhs : FVec Ideal ⟨2, ![K, M]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 k p) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 k p := funext fun a => Fin.ext (by
    match a with
    | ⟨0, _⟩ => exact (hl0 _ _).trans hk
    | ⟨1, _⟩ => exact hl1 _ _)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.ColsDot

end
-- ==== Proof.Payload.lean ====
/-
  The kernel body's arithmetic, read at an index, over the extended reals.

  The body computes four values. The first is the zero block. The second divides each row of a block of query rows
  by its floored Euclidean norm. The third normalises a block of key rows the same way and multiplies it by the
  transposed normalised query block: a matrix product contracting the last axis of both operands. The fourth adds to
  the running total the product of the transposed third value and a block of value rows: a matrix product contracting
  the first axis of both operands.
-/
import proofs.«158362_j22316650070306_2_alg».proof.Proof.Spec
import proofs.«158362_j22316650070306_2_alg».proof.Proof.Gen.KernelIdeal.Skeleton
import proofs.«158362_j22316650070306_2_alg».proof.Proof.LibRows
import proofs.«158362_j22316650070306_2_alg».proof.Proof.LibColumn
import proofs.«158362_j22316650070306_2_alg».proof.Proof.LibRowsDot
import proofs.«158362_j22316650070306_2_alg».proof.Proof.LibColsDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.CosAttn.Pay

open Cert.KernelIdeal Cert.KernelIdeal.Gen Idealize.ShloMosaic Idealize.ShloMosaic.ValueIdx Cert.CosAttn Cert.ColsDot

/-- Each row of `x` divided by its floored norm, as the body writes it — the squares summed along the row, the sum
    kept as a column, its square root floored and spread back along the row — is `unit x` at every entry. -/
theorem normalize_apply {a b : ℕ} (x : FVec Ideal ⟨2, ![a, b]⟩ .f32)
    (hred : (⟨2, ![a, b]⟩ : Shape).Reduces [1] ⟨1, ![a]⟩)
    (hcast : (⟨1, ![a]⟩ : Shape).ShapeCasts ⟨2, ![a, 1]⟩)
    (hbc : (⟨2, ![a, 1]⟩ : Shape).Broadcasts ⟨2, ![a, b]⟩) (r : Fin a) (d : Fin b) :
    divf x (broadcastTo ⟨2, ![a, b]⟩
      (maximumf (sqrt (shapeCast ⟨2, ![a, 1]⟩
          (multiReduction .add [1] ⟨1, ![a]⟩ (mulf x x) 0x00000000#32 hred (.inl rfl) rfl) hcast))
        (broadcast ⟨2, ![a, 1]⟩ (Scalar.ofBits (F := Ideal) .f32 0x322BCC77#32))) hbc) (ix2 r d)
      = unit x r d := by
  rw [divf_apply, broadcastTo_a1_ab_apply, maximumf_apply, sqrt_apply, shapeCast_a_a1_apply]
  have h := multiReduction_add_row (mulf x x) 0x00000000#32 hred (.inl rfl) rfl r
  exact congrArg (fun t => Ideal.div (x (ix2 r d)) (max (Ideal.sqrt t) eps)) h

/-- The first value is zero everywhere. -/
theorem pay1_apply (c d : Fin 1024) : k0_pay1 (F := Ideal) (ix2 c d) = 0 := by
  unfold k0_pay1
  rw [shapeCast_self]
  exact Ideal.ofBits_zero_f32

/-- The second value is the block with every row divided by its floored norm. -/
theorem pay2_apply (x0 : Vec Ideal S1024x1024 .f32) (r d : Fin 1024) :
    k0_pay2 (F := Ideal) x0 (ix2 r d) = unit x0 r d := by
  unfold k0_pay2
  rw [shapeCast_self]
  exact normalize_apply (a := 1024) (b := 1024) x0 _ _ _ r d

/-! The coordinate facts of the two dimension-number records of the body. -/

theorem dotA_l0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem dotA_l1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem dotA_r0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem dotA_r1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

theorem dotB_l0 (i : S1024x1024.Idx) (q : dot_S256x1024_S256x1024_S1024x1024_0_0_1_1_n_n.contr.Idx) :
    (dot_S256x1024_S256x1024_S1024x1024_0_0_1_1_n_n.lhsIdx i q 0).val = (q ⟨0, by decide⟩).val :=
  dot_S256x1024_S256x1024_S1024x1024_0_0_1_1_n_n.lhsIdx_val_of_single rfl i q
theorem dotB_l1 (i : S1024x1024.Idx) (q : dot_S256x1024_S256x1024_S1024x1024_0_0_1_1_n_n.contr.Idx) :
    (dot_S256x1024_S256x1024_S1024x1024_0_0_1_1_n_n.lhsIdx i q 1).val = (i 0).val := by
  unfold DotDims.lhsIdx
  rw [dif_neg (show ¬(1 : Fin S256x1024.rank) ∈ dot_S256x1024_S256x1024_S1024x1024_0_0_1_1_n_n.lhsBatch by decide), dif_pos (show (1 : Fin S256x1024.rank) ∈ dot_S256x1024_S256x1024_S1024x1024_0_0_1_1_n_n.lhsNonContracting by decide)]
  rfl
theorem dotB_r0 (i : S1024x1024.Idx) (q : dot_S256x1024_S256x1024_S1024x1024_0_0_1_1_n_n.contr.Idx) :
    (dot_S256x1024_S256x1024_S1024x1024_0_0_1_1_n_n.rhsIdx i q 0).val = (q ⟨0, by decide⟩).val :=
  dot_S256x1024_S256x1024_S1024x1024_0_0_1_1_n_n.rhsIdx_val_of_single rfl i q
theorem dotB_r1 (i : S1024x1024.Idx) (q : dot_S256x1024_S256x1024_S1024x1024_0_0_1_1_n_n.contr.Idx) :
    (dot_S256x1024_S256x1024_S1024x1024_0_0_1_1_n_n.rhsIdx i q 1).val = (i 1).val := by
  unfold DotDims.rhsIdx
  rw [dif_neg (show ¬(1 : Fin S256x1024.rank) ∈ dot_S256x1024_S256x1024_S1024x1024_0_0_1_1_n_n.rhsBatch by decide), dif_pos (show (1 : Fin S256x1024.rank) ∈ dot_S256x1024_S256x1024_S1024x1024_0_0_1_1_n_n.rhsNonContracting by decide)]
  rfl

/-- The third value at (r, c): the dot product of unit row `r` of the key block and row `c` of the second operand. -/
theorem pay3_apply (x1 : Vec Ideal S256x1024 .f32) (qn : Vec Ideal S1024x1024 .bf16) (r : Fin 256) (c : Fin 1024) :
    k0_pay3 (F := Ideal) x1 qn (ix2 r c) = ∑ d : Fin 1024, unit x1 r d * qn (ix2 c d) := by
  unfold k0_pay3
  refine (Cert.Lora.rows_dot_zero (M := 256) (N := 1024) (K := 1024) (φ₁ := .bf16) (φ₂ := .bf16)
    dot_S256x1024_S1024x1024_S256x1024_1_1_0_0_n_n none rfl rfl dotA_l0 dotA_l1 dotA_r0 dotA_r1 _
    (qn : FVec Ideal S1024x1024 .bf16) r c).trans ?_
  refine Finset.sum_congr rfl fun d _ => ?_
  refine congrArg (· * qn (ix2 c d)) ?_
  rw [truncf_apply]
  exact normalize_apply (a := 256) (b := 1024) x1 _ _ _ r d

/-- The fourth value at (c, d): the running total there plus the sum, over the 256 key rows of the block, of the
    third value at (r, c) times the value block at (r, d). -/
theorem pay4_apply (x1 x2 : Vec Ideal S256x1024 .f32) (qn : Vec Ideal S1024x1024 .bf16)
    (acc : Vec Ideal S1024x1024 .f32) (c d : Fin 1024) :
    k0_pay4 (F := Ideal) x1 x2 qn acc (ix2 c d)
      = acc (ix2 c d) + ∑ r : Fin 256, k0_pay3 (F := Ideal) x1 qn (ix2 r c) * x2 (ix2 r d) := by
  unfold k0_pay4
  rw [shapeCast_self, addf_apply]
  refine congrArg (acc (ix2 c d) + ·) ?_
  refine (cols_dot_zero (M := 1024) (N := 1024) (K := 256) (φ₁ := .bf16) (φ₂ := .bf16)
    dot_S256x1024_S256x1024_S1024x1024_0_0_1_1_n_n none rfl rfl dotB_l0 dotB_l1 dotB_r0 dotB_r1 _ _ c d).trans ?_
  exact Finset.sum_congr rfl fun r _ => rfl

end Cert.CosAttn.Pay

end
-- ==== Proof.Block.lean ====
/-
  One step of the kernel body, in the arrays' own coordinates.

  A block of the key array holds 256 consecutive rows of it, a block of the query array 1024 consecutive rows. Read
  through those row numbers, what a step computes is stated over the whole arrays: the unit rows of the query block are
  unit rows of the query array; the similarity block is a block of the similarity matrix; and the accumulator gains
  exactly the block's contribution to the weighted values.
-/
import proofs.«158362_j22316650070306_2_alg».proof.Proof.Spec
import proofs.«158362_j22316650070306_2_alg».proof.Proof.Payload
import proofs.«158362_j22316650070306_2_alg».proof.Proof.Gen.KernelIdeal.Skeleton
import Idealize.ShloMosaic.Lib.ValueIdx

noncomputable section

open scoped BigOperators

namespace Cert.CosAttn.Block

open Cert.KernelIdeal Cert.KernelIdeal.Gen Idealize.ShloMosaic Idealize.ShloMosaic.ValueIdx Cert.CosAttn Cert.CosAttn.Pay

/-- The unit row of a block's row is the unit row of the array row it was read from. -/
theorem unit_of_rows {R C R' : ℕ} (x : Mat R C) (X : Mat R' C) (r : Fin R) (r' : Fin R')
    (h : ∀ d, x (ix2 r d) = X (ix2 r' d)) (d : Fin C) : unit x r d = unit X r' d := by
  unfold unit rowNorm
  rw [h d]
  refine congrArg (fun s => Ideal.div (X (ix2 r' d)) (max (Ideal.sqrt s) eps)) ?_
  exact Finset.sum_congr rfl fun d' _ => by rw [h d']

/-- The unit rows of the query block are the unit rows of the query array's rows `qrow i ·`. -/
theorem unit_block (x0 : Vec Ideal S1024x1024 .f32) (Q : Mat 4096 1024) (i : Fin 4)
    (hx0 : ∀ c d, x0 (ix2 c d) = Q (ix2 (qrow i c) d)) (c d : Fin 1024) :
    k0_pay2 (F := Ideal) x0 (ix2 c d) = unit Q (qrow i c) d :=
  (pay2_apply x0 c d).trans (unit_of_rows x0 Q c (qrow i c) (hx0 c) d)

/-- The similarity block of key block `j` against stored unit query rows of query block `i`. -/
theorem sim_block (x1 : Vec Ideal S256x1024 .f32) (qn : Vec Ideal S1024x1024 .bf16) (Q K : Mat 4096 1024) (i : Fin 4) (j : Fin 16)
    (hx1 : ∀ r d, x1 (ix2 r d) = K (ix2 (krow j r) d)) (hqn : ∀ c d, qn (ix2 c d) = unit Q (qrow i c) d)
    (r : Fin 256) (c : Fin 1024) :
    k0_pay3 (F := Ideal) x1 qn (ix2 r c) = attn Q K (krow j r) (qrow i c) := by
  rw [pay3_apply]
  unfold attn
  refine Finset.sum_congr rfl fun d _ => ?_
  rw [hqn c d, unit_of_rows x1 K r (krow j r) (hx1 r) d]

/-- The accumulator after key block `j`: what it held plus the block's contribution. -/
theorem acc_block (x1 x2 : Vec Ideal S256x1024 .f32) (qn : Vec Ideal S1024x1024 .bf16) (acc : Vec Ideal S1024x1024 .f32)
    (Q K V : Mat 4096 1024) (i : Fin 4) (j : Fin 16)
    (hx1 : ∀ r d, x1 (ix2 r d) = K (ix2 (krow j r) d)) (hx2 : ∀ r d, x2 (ix2 r d) = V (ix2 (krow j r) d))
    (hqn : ∀ c d, qn (ix2 c d) = unit Q (qrow i c) d) (c d : Fin 1024) :
    k0_pay4 (F := Ideal) x1 x2 qn acc (ix2 c d) = acc (ix2 c d) + contrib Q K V i j c d := by
  rw [pay4_apply]
  unfold contrib
  refine congrArg (fun s => acc (ix2 c d) + s) ?_
  refine Finset.sum_congr rfl fun r _ => ?_
  rw [sim_block x1 qn Q K i j hx1 hqn r c, hx2 r d]

end Cert.CosAttn.Block

end
-- ==== Proof.Blocks.lean ====
/-
  The grid and the input blocks. The 64 grid points are numbered `t = 16·i + j`, query block `i` (of 4) and key
  block `j` (of 16); the query window's block at `t` is rows 1024·i … 1024·i + 1023 of the query array, the key and
  value windows' blocks are rows 256·j … 256·j + 255 of theirs.
-/
import proofs.«158362_j22316650070306_2_alg».proof.Proof.Spec
import proofs.«158362_j22316650070306_2_alg».proof.Proof.Gen.KernelIdeal.Frame
import Idealize.ShloMosaic.Lib.Pipeline.Value
import Idealize.ShloMosaic.Lib.ValueIdx

noncomputable section

namespace Cert.CosAttn.Blocks

open Cert.KernelIdeal Cert.KernelIdeal.Gen Idealize.ShloMosaic Idealize.ShloMosaic.TcCoe Idealize.SL.Sem
open Idealize.ShloMosaic.ValueIdx Cert.CosAttn

variable {F : FTy → Type} [FloatOps F]
variable (m : (ℓ : Loc nD τ sig) → Buf (Elt F) ℓ)

/-- Where each window's block sits at grid point `t` = 16·(query block) + (key block): the query and weighted-output
    windows at row block `t / 16`, the key and value windows at row block `t % 16`, the similarity window at
    (row block `t % 16`, column block `t / 16`). -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = t.val / 16 ∧ win0_3.index t (1 : Fin 2) = 0
    ∧ win0_4.index t (0 : Fin 2) = t.val % 16 ∧ win0_4.index t (1 : Fin 2) = t.val / 16 :=
  (by decide +kernel : ∀ t : Fin grid0.N, _)

/-- The query block of grid position `n`. -/
def qi (n : ℕ) (h : n < cfg0.N) : Fin 4 := ⟨n / 16, by have := lt_of_lt_of_eq h (show cfg0.N = 64 from N_0); omega⟩
/-- The key block of grid position `n`. -/
def ki (n : ℕ) (h : n < cfg0.N) : Fin 16 := ⟨n % 16, by omega⟩

/-- The query window's block at a point holds the rows `qrow (qi t) ·` of the query array. -/
theorem qblk_apply (c : Dev nD) (t : Fin cfg0.N) (r d : Fin 1024) :
    (iblk m c 0 t : Vec F S1024x1024 .f32) (ix2 r d) = m ((c : Thread nD τ).loc main_arg0) (ix2 (qrow (qi t.val t.isLt) r) d) := by
  obtain ⟨e0, e1, -⟩ := idx_facts t
  show V m c main_arg0 (((cfg0.win 0).blk t).view.emb (ix2 r d)) = _
  refine congrArg (m ((c : Thread nD τ).loc main_arg0)) ?_
  funext a; apply Fin.ext
  match a with
  | ⟨0, _⟩ => show win0_0.index t (0 : Fin 2) * 1024 + 1 * r.val = 1024 * (t.val / 16) + r.val; omega
  | ⟨1, _⟩ => show win0_0.index t (1 : Fin 2) * 1024 + 1 * d.val = d.val; omega

/-- The key window's block at a point holds the rows `krow (ki t) ·` of the key array. -/
theorem kblk_apply (c : Dev nD) (t : Fin cfg0.N) (r : Fin 256) (d : Fin 1024) :
    (iblk m c 1 t : Vec F S256x1024 .f32) (ix2 r d) = m ((c : Thread nD τ).loc main_arg1) (ix2 (krow (ki t.val t.isLt) r) d) := by
  obtain ⟨-, -, e0, e1, -⟩ := idx_facts t
  show V m c main_arg1 (((cfg0.win 1).blk t).view.emb (ix2 r d)) = _
  refine congrArg (m ((c : Thread nD τ).loc main_arg1)) ?_
  funext a; apply Fin.ext
  match a with
  | ⟨0, _⟩ => show win0_1.index t (0 : Fin 2) * 256 + 1 * r.val = 256 * (t.val % 16) + r.val; omega
  | ⟨1, _⟩ => show win0_1.index t (1 : Fin 2) * 1024 + 1 * d.val = d.val; omega

/-- The value window's block at a point holds the rows `krow (ki t) ·` of the value array. -/
theorem vblk_apply (c : Dev nD) (t : Fin cfg0.N) (r : Fin 256) (d : Fin 1024) :
    (iblk m c 2 t : Vec F S256x1024 .f32) (ix2 r d) = m ((c : Thread nD τ).loc main_arg2) (ix2 (krow (ki t.val t.isLt) r) d) := by
  obtain ⟨-, -, -, -, e0, e1, -⟩ := idx_facts t
  show V m c main_arg2 (((cfg0.win 2).blk t).view.emb (ix2 r d)) = _
  refine congrArg (m ((c : Thread nD τ).loc main_arg2)) ?_
  funext a; apply Fin.ext
  match a with
  | ⟨0, _⟩ => show win0_2.index t (0 : Fin 2) * 256 + 1 * r.val = 256 * (t.val % 16) + r.val; omega
  | ⟨1, _⟩ => show win0_2.index t (1 : Fin 2) * 1024 + 1 * d.val = d.val; omega

end Cert.CosAttn.Blocks

end
-- ==== Proof.Pieces.lean ====
/-
  What one run of the kernel body leaves in each buffer, as a value of what it found there.

  The body has three courses. At the first key block of a query block it clears the accumulator, stores the unit query
  rows, and then does what it does everywhere: it forms the similarity block of the current key rows against the stored
  unit query rows, stores it as this point's block of the similarity output, and adds the block's contribution to the
  accumulator. At the last key block it also copies the accumulator to the weighted output's block. Every store covers
  its whole buffer, so each buffer ends at the value of its last store, a function of the blocks loaded:
  `k0_pay2` (unit rows), `k0_pay3` (similarity block), `k0_pay4` (accumulator plus contribution), `k0_pay1` (zero).
-/
import proofs.«158362_j22316650070306_2_alg».proof.Proof.Gen.KernelIdeal.Frame
import Idealize.ShloMosaic.Lib.Pipeline.Value
import Idealize.ShloMosaic.Lib.Tactic

noncomputable section

namespace Cert.CosAttn.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-! ## First key block of a query block -/

/-- The stored query rows are the unit rows of the query block. -/
theorem A_q (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .f32) (harg5 : arg5.IsWhole) (arg6 : Memref sig .tc .vmem S256x1024 .f32) (harg6 : arg6.IsWhole) (arg7 : Memref sig .tc .vmem S1024x1024 .f32) (harg7 : arg7.IsWhole) (arg8 : Memref sig .tc .vmem S1024x1024 .bf16) (harg8 : arg8.IsWhole) (hc0 : cond0_0 i) (hc1 : ¬cond0_1 i) (x0 : Vec F S1024x1024 .f32) (x1 : Vec F S256x1024 .f32) (x2 : Vec F S256x1024 .f32) :
    sout0_A_1 c i arg2 harg2 arg3 harg3 arg4 harg4 arg5 harg5 arg6 harg6 arg7 harg7 arg8 harg8 hc0 hc1 x0 x1 x2 = k0_pay2 x0 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_unit_zero hz]
  simp only [View.readAt_eq_ld, harg2.read_unread, harg3.read_unread, harg4.read_unread, harg7.read_unread, harg8.read_unread, View.ld_unit_zero (S := S256x1024) hz, View.ld_unit_zero (S := S1024x1024) hz]

/-- The similarity block is that of the key block against the unit query rows just stored. -/
theorem A_sim (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .f32) (harg5 : arg5.IsWhole) (arg6 : Memref sig .tc .vmem S256x1024 .f32) (harg6 : arg6.IsWhole) (arg7 : Memref sig .tc .vmem S1024x1024 .f32) (harg7 : arg7.IsWhole) (arg8 : Memref sig .tc .vmem S1024x1024 .bf16) (harg8 : arg8.IsWhole) (hc0 : cond0_0 i) (hc1 : ¬cond0_1 i) (x0 : Vec F S1024x1024 .f32) (x1 : Vec F S256x1024 .f32) (x2 : Vec F S256x1024 .f32) :
    out0_A_4 c i arg2 harg2 arg3 harg3 arg4 harg4 arg5 harg5 arg6 harg6 arg7 harg7 arg8 harg8 hc0 hc1 x0 x1 x2 = k0_pay3 x1 (k0_pay2 x0) := by
  unfold out0_A_4
  rw [View.read_writes_eq_canon _ _ _ (cover0_A_4 c i arg2 harg2 arg3 harg3 arg4 harg4 arg5 harg5 arg6 harg6 arg7 harg7 arg8 harg8 hc0 hc1 x0 x1 x2)]
  unfold kernelRun0_A
  dsimp only
  sl_unfold_words
  rw [View.canon_unit_zero hz, View.readCov_unit_zero (S := S1024x1024) arg8.view hz]
  simp only [View.readAt_eq_ld, harg2.read_unread, harg3.read_unread, harg4.read_unread, harg7.read_unread, harg8.read_unread, View.ld_unit_zero (S := S256x1024) hz, View.ld_unit_zero (S := S1024x1024) hz]

/-- The accumulator is zero plus the first block's contribution. -/
theorem A_acc (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .f32) (harg5 : arg5.IsWhole) (arg6 : Memref sig .tc .vmem S256x1024 .f32) (harg6 : arg6.IsWhole) (arg7 : Memref sig .tc .vmem S1024x1024 .f32) (harg7 : arg7.IsWhole) (arg8 : Memref sig .tc .vmem S1024x1024 .bf16) (harg8 : arg8.IsWhole) (hc0 : cond0_0 i) (hc1 : ¬cond0_1 i) (x0 : Vec F S1024x1024 .f32) (x1 : Vec F S256x1024 .f32) (x2 : Vec F S256x1024 .f32) :
    sout0_A_0 c i arg2 harg2 arg3 harg3 arg4 harg4 arg5 harg5 arg6 harg6 arg7 harg7 arg8 harg8 hc0 hc1 x0 x1 x2 = k0_pay4 x1 x2 (k0_pay2 x0) (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1024) hz, View.readCov_unit_zero (S := S1024x1024) arg8.view hz,
    View.readCov_unit_zero (S := S1024x1024) arg7.view hz]
  simp only [View.readAt_eq_ld, harg2.read_unread, harg3.read_unread, harg4.read_unread, harg7.read_unread, harg8.read_unread, View.ld_unit_zero (S := S256x1024) hz, View.ld_unit_zero (S := S1024x1024) hz]

/-! ## A middle key block -/

/-- The similarity block is that of the key block against the stored unit query rows. -/
theorem B_sim (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .f32) (harg5 : arg5.IsWhole) (arg6 : Memref sig .tc .vmem S256x1024 .f32) (harg6 : arg6.IsWhole) (arg7 : Memref sig .tc .vmem S1024x1024 .f32) (harg7 : arg7.IsWhole) (arg8 : Memref sig .tc .vmem S1024x1024 .bf16) (harg8 : arg8.IsWhole) (hc0 : ¬cond0_0 i) (hc1 : ¬cond0_1 i) (x0 : Vec F S1024x1024 .f32) (x1 : Vec F S256x1024 .f32) (x2 : Vec F S256x1024 .f32) (xs0 : Vec F S1024x1024 .f32) (xs1 : Vec F S1024x1024 .bf16) :
    out0_B_4 c i arg2 harg2 arg3 harg3 arg4 harg4 arg5 harg5 arg6 harg6 arg7 harg7 arg8 harg8 hc0 hc1 x0 x1 x2 xs0 xs1 = k0_pay3 x1 xs1 := by
  unfold out0_B_4
  rw [View.read_writes_eq_canon _ _ _ (cover0_B_4 c i arg2 harg2 arg3 harg3 arg4 harg4 arg5 harg5 arg6 harg6 arg7 harg7 arg8 harg8 hc0 hc1 x0 x1 x2 xs0 xs1)]
  unfold kernelRun0_B
  dsimp only
  rw [View.canon_unit_zero hz]
  simp only [View.readAt_eq_ld, harg2.read_unread, harg3.read_unread, harg4.read_unread, harg7.read_unread, harg8.read_unread, View.ld_unit_zero (S := S256x1024) hz, View.ld_unit_zero (S := S1024x1024) hz]

/-- The accumulator is what it held plus this block's contribution. -/
theorem B_acc (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .f32) (harg5 : arg5.IsWhole) (arg6 : Memref sig .tc .vmem S256x1024 .f32) (harg6 : arg6.IsWhole) (arg7 : Memref sig .tc .vmem S1024x1024 .f32) (harg7 : arg7.IsWhole) (arg8 : Memref sig .tc .vmem S1024x1024 .bf16) (harg8 : arg8.IsWhole) (hc0 : ¬cond0_0 i) (hc1 : ¬cond0_1 i) (x0 : Vec F S1024x1024 .f32) (x1 : Vec F S256x1024 .f32) (x2 : Vec F S256x1024 .f32) (xs0 : Vec F S1024x1024 .f32) (xs1 : Vec F S1024x1024 .bf16) :
    sout0_B_0 c i arg2 harg2 arg3 harg3 arg4 harg4 arg5 harg5 arg6 harg6 arg7 harg7 arg8 harg8 hc0 hc1 x0 x1 x2 xs0 xs1 = k0_pay4 x1 x2 xs1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  rw [View.canon_unit_zero hz]
  simp only [View.readAt_eq_ld, harg2.read_unread, harg3.read_unread, harg4.read_unread, harg7.read_unread, harg8.read_unread, View.ld_unit_zero (S := S256x1024) hz, View.ld_unit_zero (S := S1024x1024) hz]

/-! ## The last key block -/

theorem C_sim (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .f32) (harg5 : arg5.IsWhole) (arg6 : Memref sig .tc .vmem S256x1024 .f32) (harg6 : arg6.IsWhole) (arg7 : Memref sig .tc .vmem S1024x1024 .f32) (harg7 : arg7.IsWhole) (arg8 : Memref sig .tc .vmem S1024x1024 .bf16) (harg8 : arg8.IsWhole) (hc0 : ¬cond0_0 i) (hc1 : cond0_1 i) (x0 : Vec F S1024x1024 .f32) (x1 : Vec F S256x1024 .f32) (x2 : Vec F S256x1024 .f32) (xs0 : Vec F S1024x1024 .f32) (xs1 : Vec F S1024x1024 .bf16) :
    out0_C_4 c i arg2 harg2 arg3 harg3 arg4 harg4 arg5 harg5 arg6 harg6 arg7 harg7 arg8 harg8 hc0 hc1 x0 x1 x2 xs0 xs1 = k0_pay3 x1 xs1 := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S256x1024) hz, View.ld_unit_zero (S := S1024x1024) hz]

theorem C_acc (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .f32) (harg5 : arg5.IsWhole) (arg6 : Memref sig .tc .vmem S256x1024 .f32) (harg6 : arg6.IsWhole) (arg7 : Memref sig .tc .vmem S1024x1024 .f32) (harg7 : arg7.IsWhole) (arg8 : Memref sig .tc .vmem S1024x1024 .bf16) (harg8 : arg8.IsWhole) (hc0 : ¬cond0_0 i) (hc1 : cond0_1 i) (x0 : Vec F S1024x1024 .f32) (x1 : Vec F S256x1024 .f32) (x2 : Vec F S256x1024 .f32) (xs0 : Vec F S1024x1024 .f32) (xs1 : Vec F S1024x1024 .bf16) :
    sout0_C_0 c i arg2 harg2 arg3 harg3 arg4 harg4 arg5 harg5 arg6 harg6 arg7 harg7 arg8 harg8 hc0 hc1 x0 x1 x2 xs0 xs1 = k0_pay4 x1 x2 xs1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S256x1024) hz, View.ld_unit_zero (S := S1024x1024) hz]

/-- The weighted output's block is the accumulator after this block's contribution. -/
theorem C_out (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .f32) (harg5 : arg5.IsWhole) (arg6 : Memref sig .tc .vmem S256x1024 .f32) (harg6 : arg6.IsWhole) (arg7 : Memref sig .tc .vmem S1024x1024 .f32) (harg7 : arg7.IsWhole) (arg8 : Memref sig .tc .vmem S1024x1024 .bf16) (harg8 : arg8.IsWhole) (hc0 : ¬cond0_0 i) (hc1 : cond0_1 i) (x0 : Vec F S1024x1024 .f32) (x1 : Vec F S256x1024 .f32) (x2 : Vec F S256x1024 .f32) (xs0 : Vec F S1024x1024 .f32) (xs1 : Vec F S1024x1024 .bf16) :
    out0_C_3 c i arg2 harg2 arg3 harg3 arg4 harg4 arg5 harg5 arg6 harg6 arg7 harg7 arg8 harg8 hc0 hc1 x0 x1 x2 xs0 xs1 = k0_pay4 x1 x2 xs1 xs0 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz, View.readCov_unit_zero (S := S1024x1024) arg7.view hz]
  simp only [View.readAt_eq_ld, harg2.read_unread, harg3.read_unread, harg4.read_unread, harg7.read_unread, harg8.read_unread, View.ld_unit_zero (S := S256x1024) hz, View.ld_unit_zero (S := S1024x1024) hz]

end Cert.CosAttn.Pieces

end
-- ==== Proof.Inv.lean ====
/-
  What the kernel's buffers hold after each grid point, by induction along the grid.

  The grid runs through the sixteen key blocks of a query block before moving to the next query block. Two buffers
  are carried from point to point: the accumulator and the stored unit query rows. After key block j of query block i
  the accumulator holds the running total `accum … i (j + 1)` — zero plus the contributions of key blocks 0 … j — and
  the query buffer the unit rows of query block i. From that, each point's similarity block is a block of the similarity
  matrix, and at the last key block the weighted output's block is the whole sum over the key rows.
-/
import proofs.«158362_j22316650070306_2_alg».proof.Proof.Spec
import proofs.«158362_j22316650070306_2_alg».proof.Proof.Payload
import proofs.«158362_j22316650070306_2_alg».proof.Proof.Block
import proofs.«158362_j22316650070306_2_alg».proof.Proof.Blocks
import proofs.«158362_j22316650070306_2_alg».proof.Proof.Pieces
import proofs.«158362_j22316650070306_2_alg».proof.Proof.Gen.KernelIdeal.Frame
import Idealize.ShloMosaic.Lib.Pipeline.Value
import Idealize.ShloMosaic.Lib.ValueIdx

noncomputable section

open scoped BigOperators

namespace Cert.CosAttn.Inv

open Cert.KernelIdeal Cert.KernelIdeal.Gen Idealize.ShloMosaic Idealize.ShloMosaic.TcCoe Idealize.SL.Sem
open Idealize.ShloMosaic.ValueIdx Cert.CosAttn Cert.CosAttn.Blocks Cert.CosAttn.Block Cert.CosAttn.Pieces Cert.CosAttn.Pay

variable (m : (ℓ : Loc nD τ sig) → Buf (Elt Ideal) ℓ)

/-- The three argument arrays on device `c`, as matrices: queries, keys, values. -/
abbrev Qa (c : Dev nD) : Mat 4096 1024 := m ((c : Thread nD τ).loc main_arg0)
abbrev Ka (c : Dev nD) : Mat 4096 1024 := m ((c : Thread nD τ).loc main_arg1)
abbrev Va (c : Dev nD) : Mat 4096 1024 := m ((c : Thread nD τ).loc main_arg2)

/-- One more key block: the running total gains that block's contribution. -/
theorem accum_step (q k v : Mat 4096 1024) (i : Fin 4) (j : Fin 16) (a d : Fin 1024) :
    accum q k v i j.val a d + contrib q k v i j a d = accum q k v i (j.val + 1) a d := by
  rw [accum_succ]
  unfold contribN
  rw [dif_pos j.isLt]

/-- What the two carried buffers hold after grid position `n` = 16·i + j: the accumulator holds the running total of
    query block `i` after key blocks 0 … j, and the query buffer holds the unit rows of query block `i`. -/
def Holds (c : Dev nD) (n : ℕ) (h : n < cfg0.N) : Prop :=
  (∀ a d : Fin 1024, (outsAt0 m c n h).2.2.1 (ix2 a d) = accum (Qa m c) (Ka m c) (Va m c) (qi n h) (n % 16 + 1) a d)
  ∧ (∀ a d : Fin 1024, (outsAt0 m c n h).2.2.2 (ix2 a d) = unit (Qa m c) (qrow (qi n h) a) d)

/-- The unit rows of the query window's block at `t`. -/
theorem unit_qblk (c : Dev nD) (t : Fin cfg0.N) (a d : Fin 1024) :
    k0_pay2 (F := Ideal) (iblk m c 0 t) (ix2 a d) = unit (Qa m c) (qrow (qi t.val t.isLt) a) d :=
  unit_block (iblk m c 0 t) (Qa m c) (qi t.val t.isLt) (fun a' d' => qblk_apply m c t a' d') a d

/-- At the first key block of a query block the accumulator is cleared and the query rows are stored. -/
theorem caseA (c : Dev nD) (t : Fin cfg0.N) (h0 : t.val % 16 = 0) (h1 : ¬t.val % 16 = 15) : Holds m c t.val t.isLt := by
  refine ⟨fun a d => ?_, fun a d => ?_⟩
  · rw [outsAt0_A m c t h0 h1]
    dsimp only
    refine (congrFun (A_acc c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)) (ix2 a d)).trans ?_
    refine (acc_block (iblk m c 1 t) (iblk m c 2 t) (k0_pay2 (F := Ideal) (iblk m c 0 t)) (k0_pay1 (F := Ideal)) (Qa m c) (Ka m c) (Va m c) (qi t.val t.isLt) (ki t.val t.isLt)
      (kblk_apply m c t) (vblk_apply m c t) (unit_qblk m c t) a d).trans ?_
    rw [pay1_apply]
    refine Eq.trans ?_ (accum_step (Qa m c) (Ka m c) (Va m c) (qi t.val t.isLt) (ki t.val t.isLt) a d)
    have e : accum (Qa m c) (Ka m c) (Va m c) (qi t.val t.isLt) (ki t.val t.isLt).val a d = 0 := by
      show accum (Qa m c) (Ka m c) (Va m c) (qi t.val t.isLt) (t.val % 16) a d = 0
      rw [h0]; rfl
    rw [e]
  · rw [outsAt0_A m c t h0 h1]
    dsimp only
    refine (congrFun (A_q c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)) (ix2 a d)).trans ?_
    exact unit_qblk m c t a d

/-- At every later key block the accumulator gains the block's contribution and the query rows stay. -/
theorem caseBC (c : Dev nD) (t : Fin cfg0.N) (h0 : ¬t.val % 16 = 0)
    (prev : Holds m c (t.val - 1) (Nat.lt_of_le_of_lt (Nat.sub_le _ _) t.isLt)) : Holds m c t.val t.isLt := by
  have hqi : qi (t.val - 1) (Nat.lt_of_le_of_lt (Nat.sub_le _ _) t.isLt) = qi t.val t.isLt := Fin.ext (by show (t.val - 1) / 16 = t.val / 16; omega)
  obtain ⟨p0, p1⟩ := prev
  rw [hqi] at p0 p1
  have hn : (t.val - 1) % 16 + 1 = (ki t.val t.isLt).val := by show (t.val - 1) % 16 + 1 = t.val % 16; omega
  have step : ∀ a d : Fin 1024, k0_pay4 (F := Ideal) (iblk m c 1 t) (iblk m c 2 t) (outsAt0 m c (t.val - 1) (Nat.lt_of_le_of_lt (Nat.sub_le _ _) t.isLt)).2.2.2 (outsAt0 m c (t.val - 1) (Nat.lt_of_le_of_lt (Nat.sub_le _ _) t.isLt)).2.2.1 (ix2 a d)
      = accum (Qa m c) (Ka m c) (Va m c) (qi t.val t.isLt) (t.val % 16 + 1) a d := fun a d => by
    refine (acc_block (iblk m c 1 t) (iblk m c 2 t) (outsAt0 m c (t.val - 1) (Nat.lt_of_le_of_lt (Nat.sub_le _ _) t.isLt)).2.2.2 (outsAt0 m c (t.val - 1) (Nat.lt_of_le_of_lt (Nat.sub_le _ _) t.isLt)).2.2.1 (Qa m c) (Ka m c) (Va m c) (qi t.val t.isLt) (ki t.val t.isLt)
      (kblk_apply m c t) (vblk_apply m c t) p1 a d).trans ?_
    rw [p0 a d, hn]
    exact accum_step (Qa m c) (Ka m c) (Va m c) (qi t.val t.isLt) (ki t.val t.isLt) a d
  by_cases h1 : t.val % 16 = 15
  · refine ⟨fun a d => ?_, fun a d => ?_⟩
    · rw [outsAt0_C m c t h0 h1]
      dsimp only
      refine (congrFun (C_acc c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 a d)).trans ?_
      exact step a d
    · rw [outsAt0_C m c t h0 h1]
      dsimp only
      unfold sout0_C_1
      exact p1 a d
  · refine ⟨fun a d => ?_, fun a d => ?_⟩
    · rw [outsAt0_B m c t h0 h1]
      dsimp only
      refine (congrFun (B_acc c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 a d)).trans ?_
      exact step a d
    · rw [outsAt0_B m c t h0 h1]
      dsimp only
      unfold sout0_B_1
      exact p1 a d

/-- So it holds after every grid position, by induction along the grid. -/
theorem holds (c : Dev nD) : ∀ (n : ℕ) (h : n < cfg0.N), Holds m c n h
  | 0, h => caseA m c ⟨0, h⟩ rfl (by show ¬(0 : ℕ) % 16 = 15; decide)
  | n + 1, h => by
    by_cases h0 : (n + 1) % 16 = 0
    · exact caseA m c ⟨n + 1, h⟩ h0 (by show ¬(n + 1) % 16 = 15; omega)
    · exact caseBC m c ⟨n + 1, h⟩ h0 (holds c n _)

/-- The similarity window's buffer after point `t` holds block (key block, query block) of the similarity matrix. -/
theorem sim_at (c : Dev nD) (t : Fin cfg0.N) (r : Fin 256) (a : Fin 1024) :
    (outsAt0 m c t.val t.isLt).2.1 (ix2 r a) = attn (Qa m c) (Ka m c) (krow (ki t.val t.isLt) r) (qrow (qi t.val t.isLt) a) := by
  by_cases h0 : t.val % 16 = 0
  · have h1 : ¬t.val % 16 = 15 := by omega
    rw [outsAt0_A m c t h0 h1]
    dsimp only
    refine (congrFun (A_sim c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)) (ix2 r a)).trans ?_
    exact sim_block (iblk m c 1 t) (k0_pay2 (F := Ideal) (iblk m c 0 t)) (Qa m c) (Ka m c) (qi t.val t.isLt) (ki t.val t.isLt)
      (kblk_apply m c t) (unit_qblk m c t) r a
  · have hqi : qi (t.val - 1) (Nat.lt_of_le_of_lt (Nat.sub_le _ _) t.isLt) = qi t.val t.isLt := Fin.ext (by show (t.val - 1) / 16 = t.val / 16; omega)
    have p1 := (holds m c (t.val - 1) (Nat.lt_of_le_of_lt (Nat.sub_le _ _) t.isLt)).2
    rw [hqi] at p1
    by_cases h1 : t.val % 16 = 15
    · rw [outsAt0_C m c t h0 h1]
      dsimp only
      refine (congrFun (C_sim c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r a)).trans ?_
      exact sim_block (iblk m c 1 t) (outsAt0 m c (t.val - 1) (Nat.lt_of_le_of_lt (Nat.sub_le _ _) t.isLt)).2.2.2 (Qa m c) (Ka m c) (qi t.val t.isLt) (ki t.val t.isLt) (kblk_apply m c t) p1 r a
    · rw [outsAt0_B m c t h0 h1]
      dsimp only
      refine (congrFun (B_sim c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r a)).trans ?_
      exact sim_block (iblk m c 1 t) (outsAt0 m c (t.val - 1) (Nat.lt_of_le_of_lt (Nat.sub_le _ _) t.isLt)).2.2.2 (Qa m c) (Ka m c) (qi t.val t.isLt) (ki t.val t.isLt) (kblk_apply m c t) p1 r a

/-- At the last key block of a query block the weighted window's buffer holds the weighted values of that block's rows. -/
theorem out_at (c : Dev nD) (t : Fin cfg0.N) (h1 : t.val % 16 = 15) (a d : Fin 1024) :
    (outsAt0 m c t.val t.isLt).1 (ix2 a d) = weighted (Qa m c) (Ka m c) (Va m c) (qrow (qi t.val t.isLt) a) d := by
  have h0 : ¬t.val % 16 = 0 := by omega
  have hs := (holds m c t.val t.isLt).1 a d
  rw [outsAt0_C m c t h0 h1] at hs
  dsimp only at hs
  rw [outsAt0_C m c t h0 h1]
  dsimp only
  refine (congrFun (C_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 a d)).trans ?_
  refine ((congrFun (C_acc c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 a d)).symm.trans hs).trans ?_
  rw [h1]
  exact accum_full (Qa m c) (Ka m c) (Va m c) (qi t.val t.isLt) a d

end Cert.CosAttn.Inv

end
-- ==== Proof.Final.lean ====
/-
  From the points' blocks to the two result arrays.

  Every grid point writes its similarity block back, and the blocks (key block, query block) tile the 4096 × 4096
  similarity array; the weighted output's block is written back at the last key block of each query block only, and
  those four blocks tile the 4096 × 1024 weighted array. Each written block is the matching block of one whole-array
  function, so after the run each result array is that function.
-/
import proofs.«158362_j22316650070306_2_alg».proof.Proof.Spec
import proofs.«158362_j22316650070306_2_alg».proof.Proof.Blocks
import proofs.«158362_j22316650070306_2_alg».proof.Proof.Inv
import proofs.«158362_j22316650070306_2_alg».proof.Proof.Gen.KernelIdeal.Frame
import proofs.«158362_j22316650070306_2_alg».proof.Proof.Gen.KernelIdeal.Value
import Idealize.ShloMosaic.Lib.Pipeline.Value
import Idealize.ShloMosaic.Lib.ValueIdx

noncomputable section

namespace Cert.CosAttn.Final

open Cert.KernelIdeal Cert.KernelIdeal.Gen Idealize.ShloMosaic Idealize.ShloMosaic.TcCoe Idealize.SL.Sem
open Idealize.ShloMosaic.Pipeline (Dat)
open Idealize.ShloMosaic.ValueIdx Cert.CosAttn Cert.CosAttn.Blocks Cert.CosAttn.Inv

variable (m : (ℓ : Loc nD τ sig) → Buf (Elt Ideal) ℓ) (ρ : Dev nD → PrngReg)

/-! ## The similarity array -/

/-- What point `t` writes back is block `t` of the similarity matrix. -/
theorem flushed_sim (c : Dev nD) (t : Fin cfg0.N) :
    (dats m 0 c).flushed 4 t = ((cfg0.win 4).blk t).view.read (Elt Ideal) (attnArr (Qa m c) (Ka m c)) := by
  rw [Cert.KernelIdeal.Value.flushed4]
  obtain ⟨-, -, -, -, -, -, -, -, e0, e1⟩ := idx_facts t
  funext j
  obtain ⟨r, a, rfl⟩ : ∃ (r : Fin 256) (a : Fin 1024), (j : S256x1024.Idx) = ix2 r a := ⟨j 0, j 1, eq_ix2 j⟩
  show (outsAt0 m c t.val t.isLt).2.1 (ix2 r a) = attnArr (Qa m c) (Ka m c) (((cfg0.win 4).blk t).view.emb (ix2 r a))
  rw [sim_at m c t r a]
  unfold attnArr
  refine congr (congrArg (attn (Qa m c) (Ka m c)) (Fin.ext ?_)) (Fin.ext ?_)
  · show 256 * (t.val % 16) + r.val = win0_4.index t (0 : Fin 2) * 256 + 1 * r.val; omega
  · show 1024 * (t.val / 16) + a.val = win0_4.index t (1 : Fin 2) * 1024 + 1 * a.val; omega

/-- An index of the similarity array is in point `t`'s block iff each coordinate is in the block's range. -/
theorem mem_sim (t : Fin cfg0.N) (i : S4096x4096.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v0_1).slice (win0_4.rect t)).set ↔ _
  rw [View.set_slice_whole, Rect.mem_set_unit]
  exact Iff.rfl

/-- Entry (kk, qq) lies in the block of the point 16·(qq / 1024) + kk / 256. -/
theorem cover_sim (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  let t : Fin cfg0.N := ⟨16 * ((i 1).val / 1024) + (i 0).val / 256, by rw [show cfg0.N = 64 from N_0]; omega⟩
  have ht : t.val = 16 * ((i 1).val / 1024) + (i 0).val / 256 := rfl
  obtain ⟨-, -, -, -, -, -, -, -, e0, e1⟩ := idx_facts t
  refine ⟨t, flush0_4 t, ?_⟩
  rw [mem_sim]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1024 ≤ (i 1).val ∧ (i 1).val < win0_4.index t (1 : Fin 2) * 1024 + 1024; omega

/-- After the run the similarity array is the similarity matrix. -/
theorem final_sim (c : Dev nD) : (dats m 0 c).arrAt 4 cfg0.N = attnArr (Qa m c) (Ka m c) :=
  (dats m 0 c).arrAt_eq_of_cover 4 (attnArr (Qa m c) (Ka m c)) (fun t _ => flushed_sim m c t) cover_sim

/-! ## The weighted array -/

/-- What a point at the last key block writes back is its query block's rows of the weighted values. -/
theorem flushed_out (c : Dev nD) (t : Fin cfg0.N) (hf : (cfg0.win 3).flush t = true) :
    (dats m 0 c).flushed 3 t = ((cfg0.win 3).blk t).view.read (Elt Ideal) (weightedArr (Qa m c) (Ka m c) (Va m c)) := by
  have h1 : t.val % 16 = 15 := (flush0_3 t).mp hf
  rw [Cert.KernelIdeal.Value.flushed3]
  obtain ⟨-, -, -, -, -, -, e0, e1, -⟩ := idx_facts t
  funext j
  obtain ⟨a, d, rfl⟩ : ∃ (a : Fin 1024) (d : Fin 1024), (j : S1024x1024.Idx) = ix2 a d := ⟨j 0, j 1, eq_ix2 j⟩
  show (outsAt0 m c t.val t.isLt).1 (ix2 a d) = weightedArr (Qa m c) (Ka m c) (Va m c) (((cfg0.win 3).blk t).view.emb (ix2 a d))
  rw [out_at m c t h1 a d]
  unfold weightedArr
  refine congr (congrArg (weighted (Qa m c) (Ka m c) (Va m c)) (Fin.ext ?_)) (Fin.ext ?_)
  · show 1024 * (t.val / 16) + a.val = win0_3.index t (0 : Fin 2) * 1024 + 1 * a.val; omega
  · show d.val = win0_3.index t (1 : Fin 2) * 1024 + 1 * d.val; omega

/-- An index of the weighted array is in point `t`'s block iff each coordinate is in the block's range. -/
theorem mem_out (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0_0).slice (win0_3.rect t)).set ↔ _
  rw [View.set_slice_whole, Rect.mem_set_unit]
  exact Iff.rfl

/-- Row qq lies in the block written at the last key block of query block qq / 1024. -/
theorem cover_out (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  let t : Fin cfg0.N := ⟨16 * ((i 0).val / 1024) + 15, by rw [show cfg0.N = 64 from N_0]; omega⟩
  have ht : t.val = 16 * ((i 0).val / 1024) + 15 := rfl
  obtain ⟨-, -, -, -, -, -, e0, e1, -⟩ := idx_facts t
  refine ⟨t, (flush0_3 t).mpr (by omega), ?_⟩
  rw [mem_out]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- After the run the weighted array is the weighted values. -/
theorem final_out (c : Dev nD) : (dats m 0 c).arrAt 3 cfg0.N = weightedArr (Qa m c) (Ka m c) (Va m c) :=
  (dats m 0 c).arrAt_eq_of_cover 3 (weightedArr (Qa m c) (Ka m c) (Va m c)) (flushed_out m c) cover_out

/-! ## The run -/

/-- Every weakly fair execution of the idealized kernel terminates with the two result arrays at the weighted values and
    the similarity matrix of its arguments, the arguments unchanged. -/
theorem run : θ_run defs (onTc (τ := τ) (main (F := Ideal))) ⟨m, fun _ => 0, ρ⟩ fun r => ∀ c : Dev nD,
      r.2.mem ((c : Thread nD τ).loc main_v0_0) = weightedArr (Qa m c) (Ka m c) (Va m c)
      ∧ r.2.mem ((c : Thread nD τ).loc main_v0_1) = attnArr (Qa m c) (Ka m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_out m c), (h c).2.1.trans (final_sim m c), (h c).2.2⟩)
    (Cert.KernelIdeal.Value.run_blocks m ρ)

end Cert.CosAttn.Final

end
-- ==== Proof.lean ====
/-
  Cosine-similarity attention: the tiled kernel against the plain reference, over the extended reals.

  Both programs return, for queries, keys and values of shape 4096 × 1024, the similarity matrix
  attn[kk, qq] = Σ_d K̂[kk, d] · Q̂[qq, d] of the rows divided by their floored norms, and the weighted values
  W[qq, d] = Σ_kk attn[kk, qq] · V[kk, d]. The reference computes them by two whole matrix products. The kernel walks a
  4 × 16 grid of (query block, key block): it keeps the unit query rows of the current query block, writes each
  256 × 1024 block of the similarity matrix as it forms it, and accumulates the weighted values over the sixteen key
  blocks, writing them once at the last. Block by block the similarity entries are the same sums, and the accumulated
  weighted value is the same sum taken 256 key rows at a time; only associativity and commutativity of addition join
  the two sides, so the finiteness of the inputs is never used. The idealization rewrote no operation, so there is
  nothing to preserve beyond the program text itself.
-/
import proofs.«158362_j22316650070306_2_alg».proof.Defs
import proofs.«158362_j22316650070306_2_alg».proof.Proof.Gen.Kernel
import proofs.«158362_j22316650070306_2_alg».proof.Proof.Gen.Kernel.Frame
import proofs.«158362_j22316650070306_2_alg».proof.Proof.Gen.KernelIdeal
import proofs.«158362_j22316650070306_2_alg».proof.Proof.Gen.KernelIdeal.Frame
import proofs.«158362_j22316650070306_2_alg».proof.Proof.Gen.KernelIdeal.Value
import proofs.«158362_j22316650070306_2_alg».proof.Proof.Gen.ReferenceIdeal
import proofs.«158362_j22316650070306_2_alg».proof.Proof.Gen.ReferenceIdeal.Run
import proofs.«158362_j22316650070306_2_alg».proof.Proof.Gen.ReferenceIdeal.Read
import proofs.«158362_j22316650070306_2_alg».proof.Proof.Gen.Pre_finite_inputs
import proofs.«158362_j22316650070306_2_alg».proof.Proof.Spec
import proofs.«158362_j22316650070306_2_alg».proof.Proof.RefSpec
import proofs.«158362_j22316650070306_2_alg».proof.Proof.Inv
import proofs.«158362_j22316650070306_2_alg».proof.Proof.Final
import Idealize.ShloMosaic.Adequacy
import Idealize.ShloMosaic.Init

noncomputable section

namespace Cert.Proof

open Idealize.ShloMosaic Idealize.SL.Sem Cert.CosAttn

theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the weighted values and the similarity matrix of the same arguments. -/
theorem algebraic : Cert.algebraic_KernelIdeal_ReferenceIdeal := by
  intro m ρ m' ρ' _ hagree
  refine ⟨fun c => weightedArr (Inv.Qa m c) (Inv.Ka m c) (Inv.Va m c), fun c => attnArr (Inv.Qa m c) (Inv.Ka m c),
    Cert.CosAttn.Final.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v19_eq, Cert.CosAttn.Ref.ref_weighted, (hagree c).1, (hagree c).2.1, (hagree c).2.2]
  · rw [(h c).2.1, Cert.ReferenceIdeal.Read.val_main_v17_eq, Cert.CosAttn.Ref.ref_attn, (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
